-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4608x8x128 : Shape := ⟨4, ![8, 4608, 8, 128]⟩
abbrev S_ : Shape := ⟨0, ![]⟩

class Facts : Prop where
  bcast_S_S8x4608x8x128 : S_.BroadcastsInDim S8x4608x8x128 (![] : Fin 0 → Fin S8x4608x8x128.rank)
  reducesTo_S8x4608x8x128_S_d0_1_2_3 : S8x4608x8x128.ReducesTo [0, 1, 2, 3] S_
  h_S_ : 0 < S_.numel

variable [Facts]

def fn {F : FTy → Type} [FloatOps F] (main_arg0 : FVec F S8x4608x8x128 .f32) (main_arg1 : FVec F S8x4608x8x128 .f32) : IVec S_ 1 :=
  let main_v0 : FVec F S8x4608x8x128 .f32 := Host.absf main_arg0
  let main_cst : FVec F S_ .f32 := constant S_ .f32 0x7F800000#32
  let main_v1 : FVec F S8x4608x8x128 .f32 := broadcastInDim S8x4608x8x128 ![] bcast_S_S8x4608x8x128 main_cst
  let main_v2 : IVec S8x4608x8x128 1 := cmpf .olt main_v0 main_v1
  let main_c : IVec S_ 1 := constantI S_ 1 1#1
  let main_v3 : IVec S_ 1 := (fun x v => Host.reduce IntOp.andi x v reducesTo_S8x4608x8x128_S_d0_1_2_3 h_S_) main_v2 main_c
  let main_v4 : FVec F S8x4608x8x128 .f32 := Host.absf main_arg1
  let main_cst_0 : FVec F S_ .f32 := constant S_ .f32 0x7F800000#32
  let main_v5 : FVec F S8x4608x8x128 .f32 := broadcastInDim S8x4608x8x128 ![] bcast_S_S8x4608x8x128 main_cst_0
  let main_v6 : IVec S8x4608x8x128 1 := cmpf .olt main_v4 main_v5
  let main_c_1 : IVec S_ 1 := constantI S_ 1 1#1
  let main_v7 : IVec S_ 1 := (fun x v => Host.reduce IntOp.andi x v reducesTo_S8x4608x8x128_S_d0_1_2_3 h_S_) main_v6 main_c_1
  let main_v8 : IVec S_ 1 := andi main_v3 main_v7
  main_v8
-- ==== Kernel.lean ====
abbrev S8x4608x8x128 : Shape := ⟨4, ![8, 4608, 8, 128]⟩
abbrev S8x4096x8x128 : Shape := ⟨4, ![8, 4096, 8, 128]⟩
abbrev S1x512x8x128 : Shape := ⟨4, ![1, 512, 8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x4608x8x128, .f32⟩
  | .hbm, ⟨1, _⟩ => ⟨S8x4608x8x128, .f32⟩
  | .hbm, ⟨2, _⟩ => ⟨S8x4096x8x128, .f32⟩
  | .hbm, ⟨3, _⟩ => ⟨S8x4096x8x128, .f32⟩
  | .local _ .vmem, ⟨0, _⟩ => ⟨S1x512x8x128, .f32⟩
  | .local _ .vmem, ⟨1, _⟩ => ⟨S1x512x8x128, .f32⟩
  | .local _ .vmem, ⟨2, _⟩ => ⟨S1x512x8x128, .f32⟩
  | .local _ .vmem, ⟨3, _⟩ => ⟨S1x512x8x128, .f32⟩
  | .local _ .vmem, ⟨4, _⟩ => ⟨S1x512x8x128, .f32⟩
  | .local _ .vmem, ⟨5, _⟩ => ⟨S1x512x8x128, .f32⟩
  | .local _ .vmem, ⟨6, _⟩ => ⟨S1x512x8x128, .f32⟩
  | .local _ .vmem, ⟨7, _⟩ => ⟨S1x512x8x128, .f32⟩
  | _, _ => ⟨S8x4608x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x8x128_S1x512x8x128_0_0_0_0 : ∀ a, (![0, 0, 0, 0] : Fin 4 → Nat) a + S1x512x8x128.size a ≤ S1x512x8x128.size a
  h_S1x512x8x128 : 0 < S1x512x8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8x128.size a ≤ S8x4608x8x128.size a
  hwx0_0 : ∀ i : grid0.Coords, EltTy.bits .f32 = 32 ∨ (Rect.block (s := S8x4608x8x128) S1x512x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8x128.size a ≤ S8x4608x8x128.size a
  hwx0_1 : ∀ i : grid0.Coords, EltTy.bits .f32 = 32 ∨ (Rect.block (s := S8x4608x8x128) S1x512x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x8x128.size a ≤ S8x4096x8x128.size a
  hwx0_2 : ∀ i : grid0.Coords, EltTy.bits .f32 = 32 ∨ (Rect.block (s := S8x4096x8x128) S1x512x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x8x128.size a ≤ S8x4096x8x128.size a
  hwx0_3 : ∀ i : grid0.Coords, EltTy.bits .f32 = 32 ∨ (Rect.block (s := S8x4096x8x128) S1x512x8x128.size (cc0_transform_3 i) (hinb0_3 i)).WholeWords (EltTy.packing .f32)

variable [Facts₀]

abbrev win0_0 : Pipeline.Window sig grid0 :=
  Pipeline.Window.ofSpec (Memref.whole main_arg0) S1x512x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4608x8x128 : Shape := ⟨4, ![8, 4608, 8, 128]⟩
abbrev S4096 : Shape := ⟨1, ![4096]⟩
abbrev S_ : Shape := ⟨0, ![]⟩
abbrev S3584 : Shape := ⟨1, ![3584]⟩
abbrev S512 : Shape := ⟨1, ![512]⟩
abbrev S4096x1 : Shape := ⟨2, ![4096, 1]⟩
abbrev S8x4096x8x128 : Shape := ⟨4, ![8, 4096, 8, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x4608x8x128, .f32⟩
  | .hbm, ⟨1, _⟩ => ⟨S8x4608x8x128, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S3584, .i32⟩
  | .hbm, ⟨29, _⟩ => ⟨S_, .i32⟩
  | .hbm, ⟨30, _⟩ => ⟨S3584, .i32⟩
  | .hbm, ⟨31, _⟩ => ⟨S3584, .i32⟩
  | .hbm, ⟨32, _⟩ => ⟨S512, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S8x4096x8x128, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S8x4096x8x128, .f32⟩
  | _, _ => ⟨S8x4608x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_3 : Ref sig .tc := ⟨.hbm, 34, rfl⟩
abbrev main_v12 : Ref sig .tc := ⟨.hbm, 35, rfl⟩
abbrev main_v13 : Ref sig .tc := ⟨.hbm, 36, rfl⟩
abbrev main_c_4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S3584 : S_.BroadcastsInDim S3584 (![] : Fin 0 → Fin S3584.rank)
  concatenates_S3584_S512_S4096_d0 : Shape.Concatenates [S3584, S512] S4096 0
  bcast_S4096_S4096x1_0 : S4096.BroadcastsInDim S4096x1 (![0] : Fin 1 → Fin S4096x1.rank)
  gather_S4096_S4096x1_S4096_n_0_n_n_0_1_1_wf : GatherDims.WF S4096 S4096x1 S4096 [] [0] [] [0] [] 1 ![1]
  gather_S8x4608x8x128_S4096x1_S8x4096x8x128_023_1_n_n_1_1_818128_wf : GatherDims.WF S8x4608x8x128 S4096x1 S8x4096x8x128 [0, 2, 3] [1] [] [1] [] 1 ![8, 1, 8, 128]

variable [Facts₀]

def gather_S4096_S4096x1_S4096_n_0_n_n_0_1_1 : GatherDims S4096 S4096x1 S4096 where
  offsetDims := []
  collapsedSliceDims := [0]
  operandBatchingDims := []
  startIndicesBatchingDims := []
  startIndexMap := [0]
  indexVectorDim := 1
  sliceSizes := ![1]
  wf := gather_S4096_S4096x1_S4096_n_0_n_n_0_1_1_wf
def gather_S8x4608x8x128_S4096x1_S8x4096x8x128_023_1_n_n_1_1_818128 : GatherDims S8x4608x8x128 S4096x1 S8x4096x8x128 where
  offsetDims := [0, 2, 3]
  collapsedSliceDims := [1]
  operandBatchingDims := []
  startIndicesBatchingDims := []
  startIndexMap := [1]
  indexVectorDim := 1
  sliceSizes := ![8, 1, 8, 128]
  wf := gather_S8x4608x8x128_S4096x1_S8x4096x8x128_023_1_n_n_1_1_818128_wf

class Facts : Prop extends Facts₀ where

variable [Facts]
-- ==== Proof.Spec.lean ====
/-
  The sliding window as one function of an argument array.

  Both programs return, for each of the two argument arrays `x : [8, 4608, 8, 128]`, the array
  `[8, 4096, 8, 128]` of its last 4096 positions along the second axis: entry `(b, j, h, d)` of the result
  is entry `(b, j + 512, h, d)` of the argument (4608 − 4096 = 512). No arithmetic is done on the entries,
  so the statement holds for any element type.
-/
import Idealize.ShloMosaic.Lib.ValueIdx

noncomputable section

namespace Cert.Window

open Idealize.ShloMosaic Idealize.ShloMosaic.ValueIdx

/-- The argument arrays' shape. -/
abbrev SIn : Shape := ⟨4, ![8, 4608, 8, 128]⟩
/-- The results' shape. -/
abbrev SOut : Shape := ⟨4, ![8, 4096, 8, 128]⟩

/-- Result index `(b, j, h, d)` reads argument index `(b, j + 512, h, d)`. -/
def shift (i : SOut.Idx) : SIn.Idx :=
  ix4 (n0 := 8) (n1 := 4608) (n2 := 8) (n3 := 128)
    ⟨(i 0).val, (i 0).isLt⟩
    ⟨(i 1).val + 512, by have h : (i 1).val < 4096 := (i 1).isLt; omega⟩
    ⟨(i 2).val, (i 2).isLt⟩
    ⟨(i 3).val, (i 3).isLt⟩

/-- The last 4096 positions of `x` along the second axis. -/
def lastWindow {α : Type} (x : SIn.Idx → α) : SOut.Idx → α := fun i => x (shift i)

theorem lastWindow_apply {α : Type} (x : SIn.Idx → α) (i : SOut.Idx) : lastWindow x i = x (shift i) := rfl

/-- The coordinates of `shift i`, as numbers. -/
theorem shift_val0 (i : SOut.Idx) : (shift i 0).val = (i 0).val := rfl
theorem shift_val1 (i : SOut.Idx) : (shift i 1).val = (i 1).val + 512 := rfl
theorem shift_val2 (i : SOut.Idx) : (shift i 2).val = (i 2).val := rfl
theorem shift_val3 (i : SOut.Idx) : (shift i 3).val = (i 3).val := rfl

/-- `shift` at an index given by coordinates. -/
theorem shift_ix4 (b : Fin 8) (j : Fin 4096) (h : Fin 8) (d : Fin 128) :
    shift (ix4 b j h d) = ix4 b ⟨j.val + 512, by omega⟩ h d := by
  funext a; match a with | ⟨0, _⟩ => rfl | ⟨1, _⟩ => rfl | ⟨2, _⟩ => rfl | ⟨3, _⟩ => rfl

end Cert.Window

end
-- ==== Proof.KernelWindow.lean ====
/-
  The kernel's two results as functions of its two arguments.

  The kernel runs over an 8 × 8 grid. At grid point `(b, w)` it reads, from each argument `[8, 4608, 8, 128]`, the
  block `[1, 512, 8, 128]` with block index `(b, w + 1, 0, 0)`, and writes it unchanged to the block with block index
  `(b, w, 0, 0)` of the matching result `[8, 4096, 8, 128]`. Entry `(b, j, h, d)` of a result lies in the block with
  `w = j / 512`, at position `j − 512 w` inside it; the block read there holds, at that position, the argument's entry
  `(b, 512 (w + 1) + (j − 512 w), h, d) = (b, j + 512, h, d)`. The 64 output blocks tile the result, so each result is
  the last 4096 positions of its argument along the second axis, and the arguments are only read.
-/
import proofs.«128641_j45861660787372_2_alg».proof.Proof.Gen.KernelIdeal.Value
import proofs.«128641_j45861660787372_2_alg».proof.Proof.Spec
import Idealize.ShloMosaic.Lib.Pipeline.Value
import Idealize.ShloMosaic.Lib.ValueIdx

noncomputable section

namespace Cert.KernelIdeal.WindowValue

open Cert.KernelIdeal Cert.KernelIdeal.Gen Cert.KernelIdeal.Value Cert.Window Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store per window are at offset zero on every axis. -/
theorem zero_offsets : (![0, 0, 0, 0] : Fin 4 → Nat) = fun _ => 0 := funext fun a => by fin_cases a <;> rfl

/-! ## Result 0: output window 2 against input window 0 -/

/-- The index maps of input window 0 and output window 2, at each of the 64 grid points: the input block is the
    output block moved one block up the second axis and equal on the others; the output's block index runs over
    `[0, 7] × [0, 7] × {0} × {0}`. -/
theorem index_maps2 : ∀ t : Fin cfg0.N, win0_0.index t (0 : Fin 4) = win0_2.index t (0 : Fin 4)
    ∧ win0_0.index t (1 : Fin 4) = win0_2.index t (1 : Fin 4) + 1
    ∧ win0_0.index t (2 : Fin 4) = win0_2.index t (2 : Fin 4)
    ∧ win0_0.index t (3 : Fin 4) = win0_2.index t (3 : Fin 4)
    ∧ win0_2.index t (0 : Fin 4) ≤ 7 ∧ win0_2.index t (1 : Fin 4) ≤ 7
    ∧ win0_2.index t (2 : Fin 4) = 0 ∧ win0_2.index t (3 : Fin 4) = 0 :=
  (by decide +kernel : ∀ t : Fin grid0.N, _)

/-- Every block `(q0, q1, 0, 0)` of the result is some grid point's. -/
theorem blocks_onto2 : ∀ (q0 : Fin 8) (q1 : Fin 8), ∃ t : Fin cfg0.N, win0_2.index t = ![q0.val, q1.val, 0, 0] :=
  (by decide +kernel : ∀ (q0 : Fin 8) (q1 : Fin 8), ∃ t : Fin grid0.N, win0_2.index t = ![q0.val, q1.val, 0, 0])

/-- What grid point `t` writes back is block `t` of the last window of the argument: the body stores the input block
    unchanged, and the input block sits 512 positions further along the second axis than the output block. -/
theorem flushed2_window (c : Dev nD) (t : Fin cfg0.N) :
    (dats m 0 c).flushed 2 t
      = ((cfg0.win 2).blk t).view.read (Elt F) (lastWindow (V m c main_arg0 : SIn.Idx → Elt F .f32) : SOut.Idx → Elt F .f32) := by
  show (cfg0.win 2).cut (grid0.coords t) ((dats m 0 c).after 2 t) = _
  rw [after0_2]
  unfold out0_2
  rw [View.canon_unit_zero zero_offsets]
  simp only [View.ld_unit_zero (S := S1x512x8x128) zero_offsets]
  obtain ⟨e0, e1, e2, e3, -, -, -, -⟩ := index_maps2 t
  funext j
  show V m c main_arg0 (((cfg0.win 0).blk t).view.emb j) = V m c main_arg0 (shift (((cfg0.win 2).blk t).view.emb j))
  refine congrArg _ ?_
  funext a; apply Fin.ext
  match a with
  | ⟨0, _⟩ => show win0_0.index t (0 : Fin 4) * 1 + 1 * (j 0).val = win0_2.index t (0 : Fin 4) * 1 + 1 * (j 0).val; omega
  | ⟨1, _⟩ => show win0_0.index t (1 : Fin 4) * 512 + 1 * (j 1).val = win0_2.index t (1 : Fin 4) * 512 + 1 * (j 1).val + 512; omega
  | ⟨2, _⟩ => show win0_0.index t (2 : Fin 4) * 8 + 1 * (j 2).val = win0_2.index t (2 : Fin 4) * 8 + 1 * (j 2).val; omega
  | ⟨3, _⟩ => show win0_0.index t (3 : Fin 4) * 128 + 1 * (j 3).val = win0_2.index t (3 : Fin 4) * 128 + 1 * (j 3).val; omega

/-- An index of the result is in point `t`'s block iff each coordinate is in the block's range on its axis. -/
theorem mem_block2 (t : Fin cfg0.N) (i : S8x4096x8x128.Idx) :
    i ∈ ((cfg0.win 2).blk t).view.set ↔ ∀ a : Fin 4, win0_2.index t a * S1x512x8x128.size a ≤ (i a).val ∧ (i a).val < win0_2.index t a * S1x512x8x128.size a + S1x512x8x128.size a := by
  show i ∈ ((View.whole main_v0_0).slice (win0_2.rect t)).set ↔ _
  rw [View.set_slice_whole, Rect.mem_set_unit]
  exact Iff.rfl

/-- Every index `(b, j, h, d)` of the result is in some point's block: the one with block index `(b, j / 512, 0, 0)`. -/
theorem covered2 (i : S8x4096x8x128.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 8 := (i 2).isLt
  have hi3 : (i 3).val < 128 := (i 3).isLt
  obtain ⟨t, ht⟩ := blocks_onto2 ⟨(i 0).val, by omega⟩ ⟨(i 1).val / 512, by omega⟩
  have q0 : win0_2.index t (0 : Fin 4) = (i 0).val := congrFun ht 0
  have q1 : win0_2.index t (1 : Fin 4) = (i 1).val / 512 := congrFun ht 1
  have q2 : win0_2.index t (2 : Fin 4) = 0 := congrFun ht 2
  have q3 : win0_2.index t (3 : Fin 4) = 0 := congrFun ht 3
  refine ⟨t, flush0_2 t, ?_⟩
  rw [mem_block2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 512 ≤ (i 1).val ∧ (i 1).val < win0_2.index t (1 : Fin 4) * 512 + 512; omega
  | ⟨2, _⟩ => show win0_2.index t (2 : Fin 4) * 8 ≤ (i 2).val ∧ (i 2).val < win0_2.index t (2 : Fin 4) * 8 + 8; omega
  | ⟨3, _⟩ => show win0_2.index t (3 : Fin 4) * 128 ≤ (i 3).val ∧ (i 3).val < win0_2.index t (3 : Fin 4) * 128 + 128; omega

/-- The result array after the run is the last window of the argument as launched. -/
theorem final2 (c : Dev nD) :
    (dats m 0 c).arrAt 2 cfg0.N = (lastWindow (m ((c : Thread nD τ).loc main_arg0) : SIn.Idx → Elt F .f32) : SOut.Idx → Elt F .f32) :=
  (dats m 0 c).arrAt_eq_of_cover 2 (lastWindow (V m c main_arg0 : SIn.Idx → Elt F .f32) : SOut.Idx → Elt F .f32)
    (fun t _ => flushed2_window m c t) covered2

/-! ## Result 1: output window 3 against input window 1 -/

/-- The index maps of input window 1 and output window 3, at each of the 64 grid points: the input block is the
    output block moved one block up the second axis and equal on the others; the output's block index runs over
    `[0, 7] × [0, 7] × {0} × {0}`. -/
theorem index_maps3 : ∀ t : Fin cfg0.N, win0_1.index t (0 : Fin 4) = win0_3.index t (0 : Fin 4)
    ∧ win0_1.index t (1 : Fin 4) = win0_3.index t (1 : Fin 4) + 1
    ∧ win0_1.index t (2 : Fin 4) = win0_3.index t (2 : Fin 4)
    ∧ win0_1.index t (3 : Fin 4) = win0_3.index t (3 : Fin 4)
    ∧ win0_3.index t (0 : Fin 4) ≤ 7 ∧ win0_3.index t (1 : Fin 4) ≤ 7
    ∧ win0_3.index t (2 : Fin 4) = 0 ∧ win0_3.index t (3 : Fin 4) = 0 :=
  (by decide +kernel : ∀ t : Fin grid0.N, _)

/-- Every block `(q0, q1, 0, 0)` of the result is some grid point's. -/
theorem blocks_onto3 : ∀ (q0 : Fin 8) (q1 : Fin 8), ∃ t : Fin cfg0.N, win0_3.index t = ![q0.val, q1.val, 0, 0] :=
  (by decide +kernel : ∀ (q0 : Fin 8) (q1 : Fin 8), ∃ t : Fin grid0.N, win0_3.index t = ![q0.val, q1.val, 0, 0])

/-- What grid point `t` writes back is block `t` of the last window of the argument: the body stores the input block
    unchanged, and the input block sits 512 positions further along the second axis than the output block. -/
theorem flushed3_window (c : Dev nD) (t : Fin cfg0.N) :
    (dats m 0 c).flushed 3 t
      = ((cfg0.win 3).blk t).view.read (Elt F) (lastWindow (V m c main_arg1 : SIn.Idx → Elt F .f32) : SOut.Idx → Elt F .f32) := by
  show (cfg0.win 3).cut (grid0.coords t) ((dats m 0 c).after 3 t) = _
  rw [after0_3]
  unfold out0_3
  rw [View.canon_unit_zero zero_offsets]
  simp only [View.ld_unit_zero (S := S1x512x8x128) zero_offsets]
  obtain ⟨e0, e1, e2, e3, -, -, -, -⟩ := index_maps3 t
  funext j
  show V m c main_arg1 (((cfg0.win 1).blk t).view.emb j) = V m c main_arg1 (shift (((cfg0.win 3).blk t).view.emb j))
  refine congrArg _ ?_
  funext a; apply Fin.ext
  match a with
  | ⟨0, _⟩ => show win0_1.index t (0 : Fin 4) * 1 + 1 * (j 0).val = win0_3.index t (0 : Fin 4) * 1 + 1 * (j 0).val; omega
  | ⟨1, _⟩ => show win0_1.index t (1 : Fin 4) * 512 + 1 * (j 1).val = win0_3.index t (1 : Fin 4) * 512 + 1 * (j 1).val + 512; omega
  | ⟨2, _⟩ => show win0_1.index t (2 : Fin 4) * 8 + 1 * (j 2).val = win0_3.index t (2 : Fin 4) * 8 + 1 * (j 2).val; omega
  | ⟨3, _⟩ => show win0_1.index t (3 : Fin 4) * 128 + 1 * (j 3).val = win0_3.index t (3 : Fin 4) * 128 + 1 * (j 3).val; omega

/-- An index of the result is in point `t`'s block iff each coordinate is in the block's range on its axis. -/
theorem mem_block3 (t : Fin cfg0.N) (i : S8x4096x8x128.Idx) :
    i ∈ ((cfg0.win 3).blk t).view.set ↔ ∀ a : Fin 4, win0_3.index t a * S1x512x8x128.size a ≤ (i a).val ∧ (i a).val < win0_3.index t a * S1x512x8x128.size a + S1x512x8x128.size a := by
  show i ∈ ((View.whole main_v0_1).slice (win0_3.rect t)).set ↔ _
  rw [View.set_slice_whole, Rect.mem_set_unit]
  exact Iff.rfl

/-- Every index `(b, j, h, d)` of the result is in some point's block: the one with block index `(b, j / 512, 0, 0)`. -/
theorem covered3 (i : S8x4096x8x128.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 8 := (i 2).isLt
  have hi3 : (i 3).val < 128 := (i 3).isLt
  obtain ⟨t, ht⟩ := blocks_onto3 ⟨(i 0).val, by omega⟩ ⟨(i 1).val / 512, by omega⟩
  have q0 : win0_3.index t (0 : Fin 4) = (i 0).val := congrFun ht 0
  have q1 : win0_3.index t (1 : Fin 4) = (i 1).val / 512 := congrFun ht 1
  have q2 : win0_3.index t (2 : Fin 4) = 0 := congrFun ht 2
  have q3 : win0_3.index t (3 : Fin 4) = 0 := congrFun ht 3
  refine ⟨t, flush0_3 t, ?_⟩
  rw [mem_block3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 512 ≤ (i 1).val ∧ (i 1).val < win0_3.index t (1 : Fin 4) * 512 + 512; omega
  | ⟨2, _⟩ => show win0_3.index t (2 : Fin 4) * 8 ≤ (i 2).val ∧ (i 2).val < win0_3.index t (2 : Fin 4) * 8 + 8; omega
  | ⟨3, _⟩ => show win0_3.index t (3 : Fin 4) * 128 ≤ (i 3).val ∧ (i 3).val < win0_3.index t (3 : Fin 4) * 128 + 128; omega

/-- The result array after the run is the last window of the argument as launched. -/
theorem final3 (c : Dev nD) :
    (dats m 0 c).arrAt 3 cfg0.N = (lastWindow (m ((c : Thread nD τ).loc main_arg1) : SIn.Idx → Elt F .f32) : SOut.Idx → Elt F .f32) :=
  (dats m 0 c).arrAt_eq_of_cover 3 (lastWindow (V m c main_arg1 : SIn.Idx → Elt F .f32) : SOut.Idx → Elt F .f32)
    (fun t _ => flushed3_window m c t) covered3

/-! ## The run -/

/-- Every weakly fair execution of the kernel terminates with each result at the last window of its argument and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0_0) = lastWindow (m ((c : Thread nD τ).loc main_arg0))
      ∧ r.2.mem ((c : Thread nD τ).loc main_v0_1) = lastWindow (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.WindowValue

end
-- ==== Proof.RefChain.lean ====
/-
  The reference program's index computation and its two gathers, as named stages.

  The reference simulates a ring buffer of 4096 slots after 4608 writes. For slot `s` the position that wrote it
  last is `s + 4096 · ⌊(4607 − s) / 4096⌋` (`lastWriter`); the slots are then read in the order
  `512, …, 4095, 0, …, 511` (`order`, a concatenation of two counting ranges), so the positions gathered are
  `lastWriter[order[j]]` (`gatherIdx`); each argument array is gathered at these positions along its second axis
  (`window`). Every lookup by an index array first adds the axis length to a negative index (`wrap`), as array
  indexing with possibly negative indices does. The stages are stated on 32-bit words exactly as the program
  computes them; that they amount to `j ↦ j + 512` is proved elsewhere.
-/
import proofs.«128641_j45861660787372_2_alg».proof.Proof.Gen.ReferenceIdeal

noncomputable section

namespace Cert.ReferenceIdeal.Chain

open Cert.ReferenceIdeal Cert.ReferenceIdeal.Gen Idealize.ShloMosaic

/-- A 32-bit scalar repeated over the 4096 slots. -/
def rep (b : BitVec 32) : IVec S4096 32 := broadcastInDim S4096 ![] bcast_S_S4096 (constantI S_ 32 b)

/-- The slot numbers `0, …, 4095`. -/
def slots : IVec S4096 32 := iotaInDim S4096 32 0

/-- `4607 − s` for every slot `s`. -/
def back : IVec S4096 32 := subi (rep 4607#32) slots

/-- Floor division of the words `x` by the scalar word `y`: the quotient rounded toward zero, lowered by one where
    the signs of dividend and divisor differ and the remainder is not zero. -/
def floorDiv (x : IVec S4096 32) (y : IVec S_ 32) : IVec S4096 32 :=
  select
    (andi (cmpi .ne (signi x) (broadcastInDim S4096 ![] bcast_S_S4096 (signi (id y))))
      (cmpi .ne (Host.remsi x (broadcastInDim S4096 ![] bcast_S_S4096 (id y))) (rep 0#32)))
    (subi (Host.divsi x (broadcastInDim S4096 ![] bcast_S_S4096 (id y))) (rep 1#32))
    (Host.divsi x (broadcastInDim S4096 ![] bcast_S_S4096 (id y)))

/-- The position that wrote slot `s` last: `s + 4096 · ⌊(4607 − s) / 4096⌋`. -/
def lastWriter : IVec S4096 32 := addi slots (muli (rep 4096#32) (floorDiv back (constantI S_ 32 4096#32)))

/-- The slots in reading order: `512 + k` for `k < 3584`, then `0, …, 511`. -/
def order : IVec S4096 32 :=
  concatenate S4096 0
    [⟨S3584, addi (broadcastInDim S3584 ![] bcast_S_S3584 (constantI S_ 32 512#32)) (iotaInDim S3584 32 0)⟩,
     ⟨S512, iotaInDim S512 32 0⟩]
    concatenates_S3584_S512_S4096_d0

/-- A negative index counts from the end of an axis of length `n`. -/
def wrap (n : BitVec 32) (v : IVec S4096 32) : IVec S4096 32 := select (cmpi .slt v (rep 0#32)) (addi v (rep n)) v

/-- An index array as the column of index vectors a gather reads. -/
def column (v : IVec S4096 32) : IVec S4096x1 32 := broadcastInDim S4096x1 ![0] bcast_S4096_S4096x1_0 v

/-- The positions gathered: `lastWriter[order[j]]`. -/
def gatherIdx : IVec S4096 32 :=
  Host.gather gather_S4096_S4096x1_S4096_n_0_n_n_0_1_1 lastWriter (column (wrap 4096#32 order))

/-- An argument array gathered at those positions along its second axis. -/
def window {α : Type} (x : S8x4608x8x128.Idx → α) : S8x4096x8x128.Idx → α :=
  Host.gather gather_S8x4608x8x128_S4096x1_S8x4096x8x128_023_1_n_n_1_1_818128 x (column (wrap 4608#32 gatherIdx))

end Cert.ReferenceIdeal.Chain

end
-- ==== Proof.RefRun.lean ====
/-
  The reference program's run, read back.

  The reference's entry function is a straight line of 59 array operations once its call of the floor-division
  helper (which itself calls a three-way select) is written out at the call site over the call's own buffers: `ops`
  lists them in order. Every weakly fair execution of such a line terminates, and each buffer ends at the fold of the
  operations over the launch contents. Read at the two result buffers, that fold is the stage `Chain.window` of the
  first and of the second argument array (proved in the module that reads the fold back); read at the argument
  buffers it is the launch contents, since no operation writes them.
-/
import proofs.«128641_j45861660787372_2_alg».proof.Proof.Gen.ReferenceIdeal
import proofs.«128641_j45861660787372_2_alg».proof.Proof.RefChain
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
open Idealize.ShloMosaic.StableHlo

variable {F : FTy → Type} [FloatOps F]

/-- The entry function's 59 operations, in order: five of its own, the seventeen of the floor division written out
    over the call's buffers (the last of them the select of the nested call), then thirty-seven of its own. -/
abbrev ops : List (HloOp τ sig (Elt F)) :=
  [
    nullary main_v0 (iotaInDim S4096 32 0),
    nullary main_c (constantI S_ 32 4607#32),
    unary main_c main_v1 (broadcastInDim S4096 ![] bcast_S_S4096 : (⟨S_, .i32⟩ : BufTy).Contents (Elt F) → (⟨S4096, .i32⟩ : BufTy).Contents (Elt F)),
    binary main_v1 main_v0 main_v2 (subi : (⟨S4096, .i32⟩ : BufTy).Contents (Elt F) → (⟨S4096, .i32⟩ : BufTy).Contents (Elt F) → (⟨S4096, .i32⟩ : BufTy).Contents (Elt F)),
    nullary main_c_0 (constantI S_ 32 4096#32),
    TRef.unary (.of main_c_0) main_call0.v0 id,
    TRef.unary main_call0.v0 main_call0.v1 (broadcastInDim S4096 ![] bcast_S_S4096),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v2) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    nullary main_c_1 (constantI S_ 32 4096#32),
    unary main_c_1 main_v4 (broadcastInDim S4096 ![] bcast_S_S4096 : (⟨S_, .i32⟩ : BufTy).Contents (Elt F) → (⟨S4096, .i32⟩ : BufTy).Contents (Elt F)),
    binary main_v4 main_v3 main_v5 (muli : (⟨S4096, .i32⟩ : BufTy).Contents (Elt F) → (⟨S4096, .i32⟩ : BufTy).Contents (Elt F) → (⟨S4096, .i32⟩ : BufTy).Contents (Elt F)),
    binary main_v0 main_v5 main_v6 (addi : (⟨S4096, .i32⟩ : BufTy).Contents (Elt F) → (⟨S4096, .i32⟩ : BufTy).Contents (Elt F) → (⟨S4096, .i32⟩ : BufTy).Contents (Elt F)),
    nullary main_v7 (iotaInDim S3584 32 0),
    nullary main_c_2 (constantI S_ 32 512#32),
    unary main_c_2 main_v8 (broadcastInDim S3584 ![] bcast_S_S3584 : (⟨S_, .i32⟩ : BufTy).Contents (Elt F) → (⟨S3584, .i32⟩ : BufTy).Contents (Elt F)),
    binary main_v8 main_v7 main_v9 (addi : (⟨S3584, .i32⟩ : BufTy).Contents (Elt F) → (⟨S3584, .i32⟩ : BufTy).Contents (Elt F) → (⟨S3584, .i32⟩ : BufTy).Contents (Elt F)),
    nullary main_v10 (iotaInDim S512 32 0),
    binary main_v9 main_v10 main_v11 ((fun a b => concatenate S4096 0 [⟨S3584, a⟩, ⟨S512, b⟩] concatenates_S3584_S512_S4096_d0) : (⟨S3584, .i32⟩ : BufTy).Contents (Elt F) → (⟨S512, .i32⟩ : BufTy).Contents (Elt F) → (⟨S4096, .i32⟩ : BufTy).Contents (Elt F)),
    nullary main_c_3 (constantI S_ 32 0#32),
    unary main_c_3 main_v12 (broadcastInDim S4096 ![] bcast_S_S4096 : (⟨S_, .i32⟩ : BufTy).Contents (Elt F) → (⟨S4096, .i32⟩ : BufTy).Contents (Elt F)),
    binary main_v11 main_v12 main_v13 (cmpi .slt : (⟨S4096, .i32⟩ : BufTy).Contents (Elt F) → (⟨S4096, .i32⟩ : BufTy).Contents (Elt F) → (⟨S4096, .i1⟩ : BufTy).Contents (Elt F)),
    nullary main_c_4 (constantI S_ 32 4096#32),
    unary main_c_4 main_v14 (broadcastInDim S4096 ![] bcast_S_S4096 : (⟨S_, .i32⟩ : BufTy).Contents (Elt F) → (⟨S4096, .i32⟩ : BufTy).Contents (Elt F)),
    binary main_v11 main_v14 main_v15 (addi : (⟨S4096, .i32⟩ : BufTy).Contents (Elt F) → (⟨S4096, .i32⟩ : BufTy).Contents (Elt F) → (⟨S4096, .i32⟩ : BufTy).Contents (Elt F)),
    ternary main_v13 main_v15 main_v11 main_v16 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v16 main_v17 (broadcastInDim S4096x1 ![0] bcast_S4096_S4096x1_0 : (⟨S4096, .i32⟩ : BufTy).Contents (Elt F) → (⟨S4096x1, .i32⟩ : BufTy).Contents (Elt F)),
    binary main_v6 main_v17 main_v18 ((fun x i => Host.gather gather_S4096_S4096x1_S4096_n_0_n_n_0_1_1 x i) : (⟨S4096, .i32⟩ : BufTy).Contents (Elt F) → (⟨S4096x1, .i32⟩ : BufTy).Contents (Elt F) → (⟨S4096, .i32⟩ : BufTy).Contents (Elt F)),
    nullary main_c_5 (constantI S_ 32 0#32),
    unary main_c_5 main_v19 (broadcastInDim S4096 ![] bcast_S_S4096 : (⟨S_, .i32⟩ : BufTy).Contents (Elt F) → (⟨S4096, .i32⟩ : BufTy).Contents (Elt F)),
    binary main_v18 main_v19 main_v20 (cmpi .slt : (⟨S4096, .i32⟩ : BufTy).Contents (Elt F) → (⟨S4096, .i32⟩ : BufTy).Contents (Elt F) → (⟨S4096, .i1⟩ : BufTy).Contents (Elt F)),
    nullary main_c_6 (constantI S_ 32 4608#32),
    unary main_c_6 main_v21 (broadcastInDim S4096 ![] bcast_S_S4096 : (⟨S_, .i32⟩ : BufTy).Contents (Elt F) → (⟨S4096, .i32⟩ : BufTy).Contents (Elt F)),
    binary main_v18 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_v18 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v23 main_v24 (broadcastInDim S4096x1 ![0] bcast_S4096_S4096x1_0 : (⟨S4096, .i32⟩ : BufTy).Contents (Elt F) → (⟨S4096x1, .i32⟩ : BufTy).Contents (Elt F)),
    binary main_arg0 main_v24 main_v25 ((fun x i => Host.gather gather_S8x4608x8x128_S4096x1_S8x4096x8x128_023_1_n_n_1_1_818128 x i) : (⟨S8x4608x8x128, .f32⟩ : BufTy).Contents (Elt F) → (⟨S4096x1, .i32⟩ : BufTy).Contents (Elt F) → (⟨S8x4096x8x128, .f32⟩ : BufTy).Contents (Elt F)),
    nullary main_c_7 (constantI S_ 32 0#32),
    unary main_c_7 main_v26 (broadcastInDim S4096 ![] bcast_S_S4096 : (⟨S_, .i32⟩ : BufTy).Contents (Elt F) → (⟨S4096, .i32⟩ : BufTy).Contents (Elt F)),
    binary main_v18 main_v26 main_v27 (cmpi .slt : (⟨S4096, .i32⟩ : BufTy).Contents (Elt F) → (⟨S4096, .i32⟩ : BufTy).Contents (Elt F) → (⟨S4096, .i1⟩ : BufTy).Contents (Elt F)),
    nullary main_c_8 (constantI S_ 32 4608#32),
    unary main_c_8 main_v28 (broadcastInDim S4096 ![] bcast_S_S4096 : (⟨S_, .i32⟩ : BufTy).Contents (Elt F) → (⟨S4096, .i32⟩ : BufTy).Contents (Elt F)),
    binary main_v18 main_v28 main_v29 (addi : (⟨S4096, .i32⟩ : BufTy).Contents (Elt F) → (⟨S4096, .i32⟩ : BufTy).Contents (Elt F) → (⟨S4096, .i32⟩ : BufTy).Contents (Elt F)),
    ternary main_v27 main_v29 main_v18 main_v30 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v30 main_v31 (broadcastInDim S4096x1 ![0] bcast_S4096_S4096x1_0 : (⟨S4096, .i32⟩ : BufTy).Contents (Elt F) → (⟨S4096x1, .i32⟩ : BufTy).Contents (Elt F)),
    binary main_arg1 main_v31 main_v32 ((fun x i => Host.gather gather_S8x4608x8x128_S4096x1_S8x4096x8x128_023_1_n_n_1_1_818128 x i) : (⟨S8x4608x8x128, .f32⟩ : BufTy).Contents (Elt F) → (⟨S4096x1, .i32⟩ : BufTy).Contents (Elt F) → (⟨S8x4096x8x128, .f32⟩ : BufTy).Contents (Elt F)) ]

-- fifty-nine binds re-associated: the rewriting under the chain recurses once per statement
set_option maxRecDepth 2048 in
/-- The entry function is that straight line: the two helpers' definitions unfolded at their calls and the calls'
    buffer records at their fields, both sides are one chain of steps once sequencing is re-associated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    binary_bufs_sub .., binary_bufs_sub .., nullary_bufs_sub .., nullary_bufs_sub .., unary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

/-- Every weakly fair execution of the entry function terminates, and every buffer ends at the operations' fold over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

end Cert.ReferenceIdeal.HandRun

end
-- ==== Proof.RefRead.lean ====
/-
  The reference's fold, read at its two result buffers.

  Unrolling the fold of the 59 operations at a result buffer, each operation's result is its function of the
  buffers it reads and every other buffer is what it was, so the result buffer holds the composed term of the
  operations that feed it: the stage `Chain.window` of the corresponding argument array (the operations of the
  written-out call carry their contents through identity casts between a buffer's type and its value's type, which
  are erased first). With the run of the straight line this gives the reference's run with its results named.
-/
import proofs.«128641_j45861660787372_2_alg».proof.Proof.RefRun

noncomputable section

namespace Cert.ReferenceIdeal.HandRun

open Cert.ReferenceIdeal Cert.ReferenceIdeal.Gen Idealize.ShloMosaic Idealize.ShloMosaic.TcCoe Idealize.SL.Sem
open Idealize.ShloMosaic.StableHlo

variable {F : FTy → Type} [FloatOps F]

set_option maxRecDepth 8192 in
/-- The fold at the first result buffer is the stage `Chain.window` of the first argument's contents. -/
theorem out0_eq (V : Valuation τ sig (Elt F)) :
    after ops V (main_v25 : DevRef τ sig) = Chain.window (V (main_arg0 : DevRef τ sig)) := by
  unfold Chain.window Chain.column Chain.wrap Chain.gatherIdx Chain.order Chain.lastWriter Chain.floorDiv Chain.back
    Chain.slots Chain.rep
  after_results_simp
  simp only [TRef.toBuf, TRef.ofBuf, cast_eq, id]
  rfl

set_option maxRecDepth 8192 in
/-- The fold at the second result buffer is the stage `Chain.window` of the second argument's contents. -/
theorem out1_eq (V : Valuation τ sig (Elt F)) :
    after ops V (main_v32 : DevRef τ sig) = Chain.window (V (main_arg1 : DevRef τ sig)) := by
  unfold Chain.window Chain.column Chain.wrap Chain.gatherIdx Chain.order Chain.lastWriter Chain.floorDiv Chain.back
    Chain.slots Chain.rep
  after_results_simp
  simp only [TRef.toBuf, TRef.ofBuf, cast_eq, id]
  rfl

/-- Every weakly fair execution of the reference terminates with each result at `Chain.window` of its argument's
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = Chain.window (m ((c.tc : Thread nD τ).loc main_arg0))
      ∧ r.2.mem ((c.tc : Thread nD τ).loc main_v32) = Chain.window (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out0_eq _), (h c main_v32).trans (out1_eq _),
      (h c main_arg0).trans (arg0_eq _), (h c main_arg1).trans (arg1_eq _)⟩)
    (run_fold m ρ)

end Cert.ReferenceIdeal.HandRun

end
-- ==== Proof.Words.lean ====
/-
  The 32-bit word arithmetic of the reference's index computation, on small non-negative numbers.

  All the numbers the reference computes with lie in `[0, 8703]`, far below `2³¹`, so its 32-bit signed operations
  are the operations on natural numbers: a word `k < 2³¹` is non-negative, its sign word is `1` when `k > 0`, a signed
  quotient of two such words is the quotient of the numbers, and "add the length when negative" leaves it alone.
  Hence: floor division by 4096 is `k / 4096` (the correction for operands of different signs never applies);
  `lw s = s + 4096 · ((4607 − s) / 4096)` is `s + 4096` for `s < 512` and `s` for `512 ≤ s < 4096`; and an index
  `k < N` read signed, wrapped and clamped into `[0, N − 1]` is `k`.
-/
import Idealize.ShloMosaic.PureOps.Ideal
import Idealize.ShloMosaic.Lib.ValueIdx

namespace Cert.Words

open Idealize.ShloMosaic Idealize.ShloMosaic.ValueIdx

/-- The sign word of `x`: `0`, `−1` or `1`. -/
def sgn (x : BitVec 32) : BitVec 32 := if x = 0 then 0 else if x.msb then -1 else 1

/-- Floor division on words: the quotient rounded toward zero, one less where the signs differ and the remainder
    is not zero. -/
def fdiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

/-- The position that wrote slot `s` last, on words. -/
def lw (s : BitVec 32) : BitVec 32 := IntOp.addi s (IntOp.muli 4096#32 (fdiv (IntOp.subi 4607#32 s) 4096#32))

/-- An index word wrapped (the length `n` added when negative), read signed and clamped into `[0, N − 1]`. -/
def wrapClamp (n : BitVec 32) (N : Nat) (v : BitVec 32) : Nat :=
  min (Scalar.select (IntOp.cmpi .slt v 0#32) (IntOp.addi v n) v).toInt.toNat (N - 1)

/-! ## Small words -/

theorem toNat_small (k : Nat) (h : k < 2 ^ 31) : (BitVec.ofNat 32 k).toNat = k := by
  rw [BitVec.toNat_ofNat]; exact Nat.mod_eq_of_lt (by omega)

theorem msb_small (k : Nat) (h : k < 2 ^ 31) : (BitVec.ofNat 32 k).msb = false := by
  rw [BitVec.msb_eq_decide, toNat_small k h]
  exact decide_eq_false (by omega)

theorem toInt_small (k : Nat) (h : k < 2 ^ 31) : (BitVec.ofNat 32 k).toInt = (k : Int) := by
  rw [BitVec.toInt_eq_toNat_of_msb (msb_small k h), toNat_small k h]

theorem ne_zero_small (k : Nat) (h0 : 0 < k) (h : k < 2 ^ 31) : BitVec.ofNat 32 k ≠ 0 := by
  intro he
  have := congrArg BitVec.toNat he
  rw [toNat_small k h] at this
  simp at this
  omega

/-- A positive small word has sign word `1`. -/
theorem sgn_small (k : Nat) (h0 : 0 < k) (h : k < 2 ^ 31) : sgn (BitVec.ofNat 32 k) = 1 := by
  unfold sgn
  rw [if_neg (ne_zero_small k h0 h), msb_small k h]
  rfl

/-! ## Floor division by 4096 -/

/-- On a positive small word, floor division by 4096 is the quotient of the numbers: the signs agree, so the
    correction is not applied; the divisor is neither `0` nor `−1`, so the quotient is the signed division, which on
    non-negative words is the unsigned one. -/
theorem fdiv_small (k : Nat) (h0 : 0 < k) (h : k < 2 ^ 31) :
    fdiv (BitVec.ofNat 32 k) 4096#32 = BitVec.ofNat 32 (k / 4096) := by
  have hs : sgn 4096#32 = 1 := by decide
  have hcmp : IntOp.cmpi .ne (1 : BitVec 32) 1 = 0#1 := by decide
  have hcorner : ¬ IntOp.SDivCorner (BitVec.ofNat 32 k) 4096#32 := by
    unfold IntOp.SDivCorner
    rintro (h1 | ⟨_, h2⟩)
    · exact absurd h1 (by decide)
    · exact absurd h2 (by decide)
  have hdiv : IntOp.divsi .host (BitVec.ofNat 32 k) 4096#32 = BitVec.ofNat 32 (k / 4096) := by
    unfold IntOp.divsi
    rw [if_neg hcorner, BitVec.sdiv_eq, msb_small k h, show (4096#32 : BitVec 32).msb = false by decide]
    show BitVec.ofNat 32 k / 4096#32 = _
    rw [BitVec.udiv_def, toNat_small k h]
    rfl
  unfold fdiv
  rw [sgn_small k h0 h, hs, hcmp]
  unfold IntOp.andi
  rw [BitVec.zero_and, select_zero, hdiv]

/-! ## The last writer of a slot -/

/-- `lw s = s + 4096` for a slot `s < 512` (written twice: by positions `s` and `s + 4096`), and `s` for a slot
    `512 ≤ s < 4096` (written once). -/
theorem lw_small (s : Nat) (hs : s < 4096) :
    lw (BitVec.ofNat 32 s) = BitVec.ofNat 32 (if s < 512 then s + 4096 else s) := by
  unfold lw IntOp.subi IntOp.addi IntOp.muli
  rw [show (4607#32 : BitVec 32) = BitVec.ofNat 32 4607 from rfl,
    BitVec.ofNat_sub_ofNat_of_le 4607 s (by omega) (by omega),
    fdiv_small (4607 - s) (by omega) (by omega),
    show (4096#32 : BitVec 32) = BitVec.ofNat 32 4096 from rfl, ← BitVec.ofNat_mul, ← BitVec.ofNat_add]
  refine congrArg (BitVec.ofNat 32) ?_
  split <;> omega

/-! ## Wrapping and clamping an index -/

/-- An index `k < N` given as a small word: it is not negative, so no length is added; read signed it is `k`; and
    clamping into `[0, N − 1]` leaves it. -/
theorem wrapClamp_small (n : BitVec 32) (N k : Nat) (hk : k < N) (hN : N ≤ 2 ^ 31) :
    wrapClamp n N (BitVec.ofNat 32 k) = k := by
  have h31 : k < 2 ^ 31 := by omega
  have hlt : IntOp.cmpi .slt (BitVec.ofNat 32 k) 0#32 = 0#1 := by
    unfold IntOp.cmpi
    show BitVec.ofBool ((BitVec.ofNat 32 k).slt 0#32) = 0#1
    rw [BitVec.slt_eq_decide, toInt_small k h31]
    have : ¬ ((k : Int) < (0#32 : BitVec 32).toInt) := by
      rw [show (0#32 : BitVec 32).toInt = 0 from rfl]; omega
    rw [decide_eq_false this]
    rfl
  unfold wrapClamp
  rw [hlt, select_zero, toInt_small k h31, Int.toNat_natCast]
  omega

/-- `512 + k` on words, for a small `k`. -/
theorem add512_small (k : Nat) : IntOp.addi 512#32 (BitVec.ofNat 32 k) = BitVec.ofNat 32 (k + 512) := by
  unfold IntOp.addi
  rw [show (512#32 : BitVec 32) = BitVec.ofNat 32 512 from rfl, ← BitVec.ofNat_add, Nat.add_comm]

end Cert.Words
-- ==== Proof.LibGatherMid.lean ====
/-
  A gather along the second axis of a rank-4 array, read at an index.

  `x[:, idx]` of an array `x : [B, N, H, D]` at an integer array `idx : [E]` lowers to a gather whose start indices
  are printed `[E, 1]` (the index vector on axis 1), whose slices are `[B, 1, H, D]` with the second axis collapsed,
  and whose result is `[B, E, H, D]`: the result's entry `(b, e, h, d)` is `x` at `(b, r, h, d)` where `r` is the
  start index `idx[e, 0]` read as a signed integer and clamped into `[0, N − 1]`.
-/
import Idealize.ShloMosaic.PureOps.Ideal
import Idealize.ShloMosaic.Lib.ValueIdx

noncomputable section

namespace Cert.Lib.GatherMid

open Idealize.ShloMosaic Idealize.ShloMosaic.ValueIdx

variable {α : Type}

/-- The dimension numbers of `x[:, idx]` for an operand `[B, N, H, D]`, start indices `[E, 1]` and result
    `[B, E, H, D]`. -/
abbrev midDims (B N H D E : Nat)
    (wf : GatherDims.WF ⟨4, ![B, N, H, D]⟩ ⟨2, ![E, 1]⟩ ⟨4, ![B, E, H, D]⟩ [0, 2, 3] [1] [] [1] [] 1 ![B, 1, H, D]) :
    GatherDims ⟨4, ![B, N, H, D]⟩ ⟨2, ![E, 1]⟩ ⟨4, ![B, E, H, D]⟩ where
  offsetDims := [0, 2, 3]
  collapsedSliceDims := [1]
  operandBatchingDims := []
  startIndicesBatchingDims := []
  startIndexMap := [1]
  indexVectorDim := 1
  sliceSizes := ![B, 1, H, D]
  wf := wf

section
variable {B N H D E w : Nat}
  (wf : GatherDims.WF ⟨4, ![B, N, H, D]⟩ ⟨2, ![E, 1]⟩ ⟨4, ![B, E, H, D]⟩ [0, 2, 3] [1] [] [1] [] 1 ![B, 1, H, D])
  (idx : IVec ⟨2, ![E, 1]⟩ w) (b : Fin B) (e : Fin E) (h : Fin H) (d : Fin D)

/-- On the gathered axis the operand coordinate is the clamped start index: no batch and no offset part. -/
theorem mid_coord1 :
    (midDims B N H D E wf).start (ix4 b e h d) idx (1 : Fin 4) + (midDims B N H D E wf).batchCoord (ix4 b e h d) (1 : Fin 4)
      + (midDims B N H D E wf).offCoord (ix4 b e h d) (1 : Fin 4) = min (idx (ix2 e (0 : Fin 1))).toInt.toNat (N - 1) := by
  rw [GatherDims.batchCoord_eq_zero _ _ _ List.not_mem_nil, Nat.add_zero,
    GatherDims.offCoord_eq_zero _ _ _ (fun hm => ((GatherDims.mem_sKept _ _).mp hm).1 (List.mem_singleton.mpr rfl)),
    Nat.add_zero]
  unfold GatherDims.start
  rw [dif_pos (show (1 : Fin 4) ∈ (midDims B N H D E wf).startIndexMap from List.mem_singleton.mpr rfl)]
  have hsi : (midDims B N H D E wf).siIdx (ix4 b e h d) ⟨List.idxOf (1 : Fin 4) (midDims B N H D E wf).startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

/-- On an axis taken whole the operand coordinate is the result's coordinate on that axis: the start is zero. -/
theorem mid_coord_kept (a : Fin 4) (ha : a ∉ [(1 : Fin 4)]) (v : Nat)
    (hv : (midDims B N H D E wf).offCoord (ix4 b e h d) a = v) :
    (midDims B N H D E wf).start (ix4 b e h d) idx a + (midDims B N H D E wf).batchCoord (ix4 b e h d) a
      + (midDims B N H D E wf).offCoord (ix4 b e h d) a = v := by
  rw [GatherDims.batchCoord_eq_zero _ _ _ List.not_mem_nil, Nat.add_zero]
  have hs : (midDims B N H D E wf).start (ix4 b e h d) idx a = 0 := by
    unfold GatherDims.start
    rw [dif_neg ha]
  rw [hs, hv, Nat.zero_add]

theorem mid_off0 : (midDims B N H D E wf).offCoord (ix4 b e h d) (0 : Fin 4) = b.val := by
  unfold GatherDims.offCoord
  rw [dif_pos ((GatherDims.mem_sKept _ _).2 ⟨(show (0 : Fin 4) ∉ [(1 : Fin 4)] by decide), List.not_mem_nil⟩)]
  rfl

theorem mid_off2 : (midDims B N H D E wf).offCoord (ix4 b e h d) (2 : Fin 4) = h.val := by
  unfold GatherDims.offCoord
  rw [dif_pos ((GatherDims.mem_sKept _ _).2 ⟨(show (2 : Fin 4) ∉ [(1 : Fin 4)] by decide), List.not_mem_nil⟩)]
  rfl

theorem mid_off3 : (midDims B N H D E wf).offCoord (ix4 b e h d) (3 : Fin 4) = d.val := by
  unfold GatherDims.offCoord
  rw [dif_pos ((GatherDims.mem_sKept _ _).2 ⟨(show (3 : Fin 4) ∉ [(1 : Fin 4)] by decide), List.not_mem_nil⟩)]
  rfl

end

/-- The gather read at `(b, e, h, d)`: the operand at `(b, r, h, d)`, `r` the start index `idx[e, 0]` read signed and
    clamped into `[0, N − 1]`. -/
theorem gather_mid_apply {B N H D E w : Nat} (hN : 0 < N)
    (wf : GatherDims.WF ⟨4, ![B, N, H, D]⟩ ⟨2, ![E, 1]⟩ ⟨4, ![B, E, H, D]⟩ [0, 2, 3] [1] [] [1] [] 1 ![B, 1, H, D])
    (x : (⟨4, ![B, N, H, D]⟩ : Shape).Idx → α) (idx : IVec ⟨2, ![E, 1]⟩ w)
    (b : Fin B) (e : Fin E) (h : Fin H) (d : Fin D) :
    Host.gather (midDims B N H D E wf) x idx (ix4 b e h d)
      = x (ix4 b ⟨min (idx (ix2 e (0 : Fin 1))).toInt.toNat (N - 1), by omega⟩ h d) := by
  unfold Host.gather
  congr 1
  funext a
  refine Fin.ext ?_
  match a with
  | ⟨0, _⟩ => exact mid_coord_kept wf idx b e h d 0 (by decide) _ (mid_off0 wf b e h d)
  | ⟨1, _⟩ => exact mid_coord1 wf idx b e h d
  | ⟨2, _⟩ => exact mid_coord_kept wf idx b e h d 2 (by decide) _ (mid_off2 wf b e h d)
  | ⟨3, _⟩ => exact mid_coord_kept wf idx b e h d 3 (by decide) _ (mid_off3 wf b e h d)

end Cert.Lib.GatherMid

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.RefWindow.lean ====
/-
  The reference's stages, read at an index: they gather position `j + 512`.

  Slot `s`'s last writer is `s + 4096` for `s < 512` and `s` otherwise. The reading order sends `j < 3584` to slot
  `j + 512` and `3584 ≤ j < 4096` to slot `j − 3584`. In the first case the slot is at least 512 and its last
  writer is itself, `j + 512`; in the second it is below 512 and its last writer is `j − 3584 + 4096 = j + 512`.
  So the gathered positions are `j + 512` for every `j`, none of the index words is negative or out of range
  (wrapping and clamping leave them), and each result array is the last 4096 positions of its argument.
-/
import proofs.«128641_j45861660787372_2_alg».proof.Proof.RefChain
import proofs.«128641_j45861660787372_2_alg».proof.Proof.Words
import proofs.«128641_j45861660787372_2_alg».proof.Proof.LibGatherMid
import proofs.«128641_j45861660787372_2_alg».proof.Proof.LibScatterGather
import proofs.«128641_j45861660787372_2_alg».proof.Proof.Spec
import Idealize.ShloMosaic.Lib.Pipeline.Value

noncomputable section

namespace Cert.ReferenceIdeal.Chain

open Cert.ReferenceIdeal Cert.ReferenceIdeal.Gen Idealize.ShloMosaic Idealize.ShloMosaic.ValueIdx Cert.Words

/-! ## The stages at an index, as word arithmetic -/

/-- The last writer of slot `r`, on words. -/
theorem lastWriter_apply (r : Fin 4096) (k : Nat) (hk : r.val = k) : lastWriter (ix1 r) = lw (BitVec.ofNat 32 k) := by
  subst hk; rfl

/-- "Add the length when negative", at an index. -/
theorem wrap_apply (n : BitVec 32) (v : IVec S4096 32) (i : S4096.Idx) :
    wrap n v i = Scalar.select (IntOp.cmpi .slt (v i) 0#32) (IntOp.addi (v i) n) (v i) := rfl

/-- The column of index vectors holds the index array's entries. -/
theorem column_apply (v : IVec S4096 32) (e : Fin 4096) : column v (ix2 e (0 : Fin 1)) = v (ix1 e) := by
  unfold column broadcastInDim
  refine congrArg v ?_
  funext a
  match a with
  | ⟨0, _⟩ => rfl

/-- An index array wrapped, put in a column, read signed at row `e` and clamped into `[0, N − 1]`. -/
theorem column_wrap_clamp (n : BitVec 32) (N : Nat) (v : IVec S4096 32) (e : Fin 4096) :
    min ((column (wrap n v)) (ix2 e (0 : Fin 1))).toInt.toNat (N - 1) = wrapClamp n N (v (ix1 e)) := by
  rw [column_apply, wrap_apply]; rfl

/-! ## The reading order -/

/-- The first 3584 places read slots `512, …, 4095`. -/
theorem order_lo (j : Fin 4096) (h : j.val < 3584) : order (ix1 j) = BitVec.ofNat 32 (j.val + 512) := by
  unfold order
  refine (concatenate_pair_apply_left (t := S4096) (s₁ := S3584) (s₂ := S512) (0 : Fin 1)
    (addi (broadcastInDim S3584 ![] bcast_S_S3584 (constantI S_ 32 512#32)) (iotaInDim S3584 32 0))
    (iotaInDim S512 32 0) concatenates_S3584_S512_S4096_d0 (ix1 j) rfl
    (ix1 (⟨j.val, h⟩ : Fin 3584) : S3584.Idx) (fun b => by match b with | ⟨0, _⟩ => rfl)).trans ?_
  exact add512_small j.val

/-- The last 512 places read slots `0, …, 511`. -/
theorem order_hi (j : Fin 4096) (h : 3584 ≤ j.val) : order (ix1 j) = BitVec.ofNat 32 (j.val - 3584) := by
  have hj : j.val < 4096 := j.isLt
  unfold order
  refine (concatenate_pair_apply_right (t := S4096) (s₁ := S3584) (s₂ := S512) (0 : Fin 1)
    (addi (broadcastInDim S3584 ![] bcast_S_S3584 (constantI S_ 32 512#32)) (iotaInDim S3584 32 0))
    (iotaInDim S512 32 0) concatenates_S3584_S512_S4096_d0 (ix1 j) rfl rfl
    (ix1 (⟨j.val - 3584, by omega⟩ : Fin 512) : S512.Idx)
    (fun b hb => by match b with | ⟨0, _⟩ => exact absurd rfl hb)
    (by show j.val - 3584 + 3584 = j.val; omega)).trans ?_
  rfl

/-! ## The gathered positions -/

/-- The slot read at place `j`, and its last writer: whichever of the two ranges `j` is in, the position is `j + 512`. -/
theorem lastWriter_of_order (j : Fin 4096) (r : Fin 4096) (hr : r.val = wrapClamp 4096#32 4096 (order (ix1 j))) :
    lastWriter (ix1 r) = BitVec.ofNat 32 (j.val + 512) := by
  have hj : j.val < 4096 := j.isLt
  by_cases h : j.val < 3584
  · rw [order_lo j h, wrapClamp_small _ _ _ (by omega) (by decide)] at hr
    rw [lastWriter_apply r _ hr, lw_small _ (by omega)]
    exact congrArg (BitVec.ofNat 32) (by split <;> omega)
  · rw [order_hi j (by omega), wrapClamp_small _ _ _ (by omega) (by decide)] at hr
    rw [lastWriter_apply r _ hr, lw_small _ (by omega)]
    exact congrArg (BitVec.ofNat 32) (by split <;> omega)

/-- The index lookup's dimension numbers are those of a flat array indexed by a column of indices. -/
theorem gatherIdx_dims : gather_S4096_S4096x1_S4096_n_0_n_n_0_1_1
    = Cert.Lib.ScatterGather.take1Dims 4096 4096 gather_S4096_S4096x1_S4096_n_0_n_n_0_1_1_wf := rfl

/-- Place `j` gathers position `j + 512`. -/
theorem gatherIdx_apply (j : Fin 4096) : gatherIdx (ix1 j) = BitVec.ofNat 32 (j.val + 512) := by
  unfold gatherIdx
  rw [gatherIdx_dims]
  refine (Cert.Lib.ScatterGather.gather_take1_apply (N := 4096) (E := 4096) (by decide)
    gather_S4096_S4096x1_S4096_n_0_n_n_0_1_1_wf lastWriter (column (wrap 4096#32 order)) j).trans ?_
  exact lastWriter_of_order j _ (column_wrap_clamp 4096#32 4096 order j)

/-! ## The results -/

/-- The argument lookups' dimension numbers are those of a rank-4 array indexed along its second axis. -/
theorem window_dims : gather_S8x4608x8x128_S4096x1_S8x4096x8x128_023_1_n_n_1_1_818128
    = Cert.Lib.GatherMid.midDims 8 4608 8 128 4096
        gather_S8x4608x8x128_S4096x1_S8x4096x8x128_023_1_n_n_1_1_818128_wf := rfl

/-- Place `j`'s position, wrapped, read signed and clamped into `[0, 4607]`, is `j + 512`. -/
theorem position_clamped (j : Fin 4096) :
    min ((column (wrap 4608#32 gatherIdx)) (ix2 j (0 : Fin 1))).toInt.toNat (4608 - 1) = j.val + 512 := by
  have hj : j.val < 4096 := j.isLt
  refine (column_wrap_clamp 4608#32 4608 gatherIdx j).trans ?_
  rw [gatherIdx_apply j]
  exact wrapClamp_small _ _ _ (by omega) (by decide)

/-- Each result array is the last 4096 positions of its argument along the second axis. -/
theorem window_eq {α : Type} (x : S8x4608x8x128.Idx → α) : window x = Cert.Window.lastWindow x := by
  funext i
  obtain ⟨b, j, h, d, rfl⟩ : ∃ (b : Fin 8) (j : Fin 4096) (h : Fin 8) (d : Fin 128), i = ix4 b j h d :=
    ⟨i 0, i 1, i 2, i 3, eq_ix4 i⟩
  unfold window
  rw [window_dims]
  refine (Cert.Lib.GatherMid.gather_mid_apply (B := 8) (N := 4608) (H := 8) (D := 128) (E := 4096) (by decide)
    gather_S8x4608x8x128_S4096x1_S8x4096x8x128_023_1_n_n_1_1_818128_wf x (column (wrap 4608#32 gatherIdx)) b j h d).trans ?_
  rw [Cert.Window.lastWindow_apply, Cert.Window.shift_ix4]
  refine congrArg x ?_
  funext a
  match a with
  | ⟨0, _⟩ => rfl
  | ⟨1, _⟩ => exact Fin.ext (position_clamped j)
  | ⟨2, _⟩ => rfl
  | ⟨3, _⟩ => rfl

end Cert.ReferenceIdeal.Chain

end
-- ==== Proof.lean ====
/-
  A sliding-window cache after 4608 writes into a ring of 4096 slots: the kernel and the reference agree.

  Both programs take two arrays `[8, 4608, 8, 128]` (keys and values, the second axis the position) and return two
  arrays `[8, 4096, 8, 128]`. The reference simulates the ring: position `i` is written to slot `i mod 4096`, later
  writes win, and the slots are read back in chronological order; it computes, with 32-bit integer arithmetic, the
  position held by each place of the output — `lastWriter[order[j]]` — and gathers the arguments there. The kernel
  copies blocks of 512 positions: output block `w` of batch row `b` is input block `w + 1` of that row.

  Both are the last 4096 positions of each argument: entry `(b, j, h, d)` of a result is entry `(b, j + 512, h, d)`
  of the argument (`Cert.Window.lastWindow`). For the kernel this is block arithmetic: place `j` is in block
  `j / 512`, and `512 (j / 512 + 1) + j mod 512 = j + 512`. For the reference it is the ring's arithmetic:
  `order[j]` is slot `(j + 512) mod 4096`; a slot below 512 was written twice, last by position `slot + 4096`,
  the others once, by position `slot`; either way the position is `j + 512`. No arithmetic is done on the entries
  themselves, so the equality holds for every extended real, finite or not: the precondition is never used, and
  the idealized kernel is the kernel's own text (no operation was rewritten).

  The kernel's frames are the generated ones. The reference has no kernel: its frame is its run (a straight line of
  59 array operations, read back by hand) with the results forgotten.
-/
import proofs.«128641_j45861660787372_2_alg».proof.Defs
import proofs.«128641_j45861660787372_2_alg».proof.Proof.Gen.Kernel
import proofs.«128641_j45861660787372_2_alg».proof.Proof.Gen.Kernel.Skeleton
import proofs.«128641_j45861660787372_2_alg».proof.Proof.Gen.Kernel.Launch
import proofs.«128641_j45861660787372_2_alg».proof.Proof.Gen.Kernel.Points
import proofs.«128641_j45861660787372_2_alg».proof.Proof.Gen.Kernel.Frame
import proofs.«128641_j45861660787372_2_alg».proof.Proof.Gen.KernelIdeal
import proofs.«128641_j45861660787372_2_alg».proof.Proof.Gen.KernelIdeal.Skeleton
import proofs.«128641_j45861660787372_2_alg».proof.Proof.Gen.KernelIdeal.Launch
import proofs.«128641_j45861660787372_2_alg».proof.Proof.Gen.KernelIdeal.Points
import proofs.«128641_j45861660787372_2_alg».proof.Proof.Gen.KernelIdeal.Frame
import proofs.«128641_j45861660787372_2_alg».proof.Proof.Gen.KernelIdeal.Value
import proofs.«128641_j45861660787372_2_alg».proof.Proof.Gen.ReferenceIdeal
import proofs.«128641_j45861660787372_2_alg».proof.Proof.Gen.Pre_finite_inputs
import proofs.«128641_j45861660787372_2_alg».proof.Proof.KernelWindow
import proofs.«128641_j45861660787372_2_alg».proof.Proof.RefRead
import proofs.«128641_j45861660787372_2_alg».proof.Proof.RefWindow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, the results forgotten. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.HandRun.run (F := Ideal) m ρ)

/-- Reading the kernel on the extended reals rewrote no operation. -/
theorem preserves : Cert.preserves_Kernel_KernelIdeal := trivial

/-- From memories that agree on the two arguments, the kernel ends with each result at the last 4096 positions of
    its argument, and so does the reference: its gathered positions are `j + 512`. -/
theorem algebraic : Cert.algebraic_KernelIdeal_ReferenceIdeal := by
  intro m ρ m' ρ' _ hagree
  refine ⟨fun c => Cert.Window.lastWindow (m ((c.tc : Thread Cert.KernelIdeal.nD Cert.KernelIdeal.τ).loc Cert.KernelIdeal.main_arg0)),
    fun c => Cert.Window.lastWindow (m ((c.tc : Thread Cert.KernelIdeal.nD Cert.KernelIdeal.τ).loc Cert.KernelIdeal.main_arg1)),
    Cert.KernelIdeal.WindowValue.run (F := Ideal) m ρ, ?_⟩
  refine (θ_run Cert.ReferenceIdeal.defs _ _).mono (fun _ h c => ⟨?_, ?_, (h c).2.2.1, (h c).2.2.2⟩)
    (Cert.ReferenceIdeal.HandRun.run (F := Ideal) m' ρ')
  · rw [(h c).1, Cert.ReferenceIdeal.Chain.window_eq, (hagree c).1]
  · rw [(h c).2.1, Cert.ReferenceIdeal.Chain.window_eq, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
